-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x5 : Shape := ⟨3, ![8, 2048, 5]⟩
abbrev S8x2048x2048 : Shape := ⟨3, ![8, 2048, 2048]⟩
abbrev S5x32 : Shape := ⟨2, ![5, 32]⟩
abbrev S_ : Shape := ⟨0, ![]⟩

class Facts : Prop where
  bcast_S_S8x2048x5 : S_.BroadcastsInDim S8x2048x5 (![] : Fin 0 → Fin S8x2048x5.rank)
  reducesTo_S8x2048x5_S_d0_1_2 : S8x2048x5.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S5x32 : S_.BroadcastsInDim S5x32 (![] : Fin 0 → Fin S5x32.rank)
  reducesTo_S5x32_S_d0_1 : S5x32.ReducesTo [0, 1] S_

variable [Facts]

def fn_part1 {F : FTy → Type} [FloatOps F] (main_v13 : IVec S_ 1) (main_v16 : IVec S5x32 1) : IVec S_ 1 :=
  let main_c_5 : IVec S_ 1 := constantI S_ 1 1#1
  let main_v17 : IVec S_ 1 := (fun x v => Host.reduce IntOp.andi x v reducesTo_S5x32_S_d0_1 h_S_) main_v16 main_c_5
  let main_v18 : IVec S_ 1 := andi main_v13 main_v17
  main_v18

def fn {F : FTy → Type} [FloatOps F] (main_arg0 : FVec F S8x2048x5 .f32) (main_arg1 : FVec F S8x2048x2048 .f32) (main_arg2 : FVec F S5x32 .f32) (main_arg3 : FVec F S5x32 .f32) : IVec S_ 1 :=
  let main_v0 : FVec F S8x2048x5 .f32 := Host.absf main_arg0
  let main_cst : FVec F S_ .f32 := constant S_ .f32 0x7F800000#32
  let main_v1 : FVec F S8x2048x5 .f32 := broadcastInDim S8x2048x5 ![] bcast_S_S8x2048x5 main_cst
  let main_v2 : IVec S8x2048x5 1 := cmpf .olt main_v0 main_v1
  let main_c : IVec S_ 1 := constantI S_ 1 1#1
  let main_v3 : IVec S_ 1 := (fun x v => Host.reduce IntOp.andi x v reducesTo_S8x2048x5_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S5x32 .f32 := Host.absf main_arg2
  let main_cst_2 : FVec F S_ .f32 := constant S_ .f32 0x7F800000#32
  let main_v10 : FVec F S5x32 .f32 := broadcastInDim S5x32 ![] bcast_S_S5x32 main_cst_2
  let main_v11 : IVec S5x32 1 := cmpf .olt main_v9 main_v10
  let main_c_3 : IVec S_ 1 := constantI S_ 1 1#1
  let main_v12 : IVec S_ 1 := (fun x v => Host.reduce IntOp.andi x v reducesTo_S5x32_S_d0_1 h_S_) main_v11 main_c_3
  let main_v13 : IVec S_ 1 := andi main_v8 main_v12
  let main_v14 : FVec F S5x32 .f32 := Host.absf main_arg3
  let main_cst_4 : FVec F S_ .f32 := constant S_ .f32 0x7F800000#32
  let main_v15 : FVec F S5x32 .f32 := broadcastInDim S5x32 ![] bcast_S_S5x32 main_cst_4
  let main_v16 : IVec S5x32 1 := cmpf .olt main_v14 main_v15
  fn_part1 (F := F) main_v13 main_v16
-- ==== Kernel.lean ====
abbrev S8x2048x5 : Shape := ⟨3, ![8, 2048, 5]⟩
abbrev S8x2048x2048 : Shape := ⟨3, ![8, 2048, 2048]⟩
abbrev S5x32 : Shape := ⟨2, ![5, 32]⟩
abbrev S1x2048x5 : Shape := ⟨3, ![1, 2048, 5]⟩
abbrev S1x512x5 : Shape := ⟨3, ![1, 512, 5]⟩
abbrev S1x512x2048 : Shape := ⟨3, ![1, 512, 2048]⟩
abbrev S2048x5 : Shape := ⟨2, ![2048, 5]⟩
abbrev S512x5 : Shape := ⟨2, ![512, 5]⟩
abbrev S2048x32 : Shape := ⟨2, ![2048, 32]⟩
abbrev S512x32 : Shape := ⟨2, ![512, 32]⟩
abbrev S32x2048 : Shape := ⟨2, ![32, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x5, .f32⟩
  | .hbm, ⟨1, _⟩ => ⟨S8x2048x2048, .f32⟩
  | .hbm, ⟨2, _⟩ => ⟨S5x32, .f32⟩
  | .hbm, ⟨3, _⟩ => ⟨S5x32, .f32⟩
  | .hbm, ⟨4, _⟩ => ⟨S8x2048x2048, .f32⟩
  | .local _ .vmem, ⟨0, _⟩ => ⟨S1x2048x5, .f32⟩
  | .local _ .vmem, ⟨1, _⟩ => ⟨S1x2048x5, .f32⟩
  | .local _ .vmem, ⟨2, _⟩ => ⟨S1x512x5, .f32⟩
  | .local _ .vmem, ⟨3, _⟩ => ⟨S1x512x5, .f32⟩
  | .local _ .vmem, ⟨4, _⟩ => ⟨S1x512x2048, .f32⟩
  | .local _ .vmem, ⟨5, _⟩ => ⟨S1x512x2048, .f32⟩
  | .local _ .vmem, ⟨6, _⟩ => ⟨S5x32, .f32⟩
  | .local _ .vmem, ⟨7, _⟩ => ⟨S5x32, .f32⟩
  | .local _ .vmem, ⟨8, _⟩ => ⟨S1x512x2048, .f32⟩
  | .local _ .vmem, ⟨9, _⟩ => ⟨S1x512x2048, .f32⟩
  | _, _ => ⟨S8x2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S5x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S5x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x2048x5_S1x2048x5_0_0_0 : ∀ a, (![0, 0, 0] : Fin 3 → Nat) a + S1x2048x5.size a ≤ S1x2048x5.size a
  h_S1x2048x5 : 0 < S1x2048x5.numel
  shapeCasts_S1x2048x5_S2048x5 : S1x2048x5.ShapeCasts S2048x5
  inb_S1x512x5_S1x512x5_0_0_0 : ∀ a, (![0, 0, 0] : Fin 3 → Nat) a + S1x512x5.size a ≤ S1x512x5.size a
  h_S1x512x5 : 0 < S1x512x5.numel
  shapeCasts_S1x512x5_S512x5 : S1x512x5.ShapeCasts S512x5
  inb_S5x32_S5x32_0_0 : ∀ a, (![0, 0] : Fin 2 → Nat) a + S5x32.size a ≤ S5x32.size a
  h_S5x32 : 0 < S5x32.numel
  transposes_S2048x32_p1_0_S32x2048 : S2048x32.Transposes [1, 0] S32x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  dot_S2048x5_S5x32_S2048x32_1_0_0_1_n_n_wf : DotDims.WF S2048x5 S5x32 S2048x32 [1] [0] [0] [1] [] []
  dot_S512x5_S5x32_S512x32_1_0_0_1_n_n_wf : DotDims.WF S512x5 S5x32 S512x32 [1] [0] [0] [1] [] []
  dot_S512x32_S32x2048_S512x2048_1_0_0_1_n_n_wf : DotDims.WF S512x32 S32x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x5.size a ≤ S8x2048x5.size a
  hwx0_0 : ∀ i : grid0.Coords, EltTy.bits .f32 = 32 ∨ (Rect.block (s := S8x2048x5) S1x2048x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x5.size a ≤ S8x2048x5.size a
  hwx0_1 : ∀ i : grid0.Coords, EltTy.bits .f32 = 32 ∨ (Rect.block (s := S8x2048x5) S1x512x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x32.size a ≤ S5x32.size a
  hwx0_3 : ∀ i : grid0.Coords, EltTy.bits .f32 = 32 ∨ (Rect.block (s := S5x32) S5x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x32.size a ≤ S5x32.size a
  hwx0_4 : ∀ i : grid0.Coords, EltTy.bits .f32 = 32 ∨ (Rect.block (s := S5x32) S5x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)

variable [Facts₀]

def dot_S2048x5_S5x32_S2048x32_1_0_0_1_n_n : DotDims S2048x5 S5x32 S2048x32 where
  lhsContracting := [1]
  rhsContracting := [0]
  lhsNonContracting := [0]
  rhsNonContracting := [1]
  lhsBatch := []
  rhsBatch := []
  wf := dot_S2048x5_S5x32_S2048x32_1_0_0_1_n_n_wf
def dot_S512x5_S5x32_S512x32_1_0_0_1_n_n : DotDims S512x5 S5x32 S512x32 where
  lhsContracting := [1]
  rhsContracting := [0]
  lhsNonContracting := [0]
  rhsNonContracting := [1]
  lhsBatch := []
  rhsBatch := []
  wf := dot_S512x5_S5x32_S512x32_1_0_0_1_n_n_wf
def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf

abbrev win0_0 : Pipeline.Window sig grid0 :=
  Pipeline.Window.ofSpec (Memref.whole main_arg0) S1x2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S5x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x5 : Shape := ⟨3, ![8, 2048, 5]⟩
abbrev S8x2048x2048 : Shape := ⟨3, ![8, 2048, 2048]⟩
abbrev S5x32 : Shape := ⟨2, ![5, 32]⟩
abbrev S8x2048x32 : Shape := ⟨3, ![8, 2048, 32]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x5, .f32⟩
  | .hbm, ⟨1, _⟩ => ⟨S8x2048x2048, .f32⟩
  | .hbm, ⟨2, _⟩ => ⟨S5x32, .f32⟩
  | .hbm, ⟨3, _⟩ => ⟨S5x32, .f32⟩
  | .hbm, ⟨4, _⟩ => ⟨S8x2048x32, .f32⟩
  | .hbm, ⟨5, _⟩ => ⟨S8x2048x32, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | _, _ => ⟨S8x2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  dot_S8x2048x5_S5x32_S8x2048x32_2_0_01_1_n_n_wf : DotDims.WF S8x2048x5 S5x32 S8x2048x32 [2] [0] [0, 1] [1] [] []
  dot_S8x2048x32_S8x2048x32_S8x2048x2048_2_2_1_1_0_0_wf : DotDims.WF S8x2048x32 S8x2048x32 S8x2048x2048 [2] [2] [1] [1] [0] [0]

variable [Facts₀]

def dot_S8x2048x5_S5x32_S8x2048x32_2_0_01_1_n_n : DotDims S8x2048x5 S5x32 S8x2048x32 where
  lhsContracting := [2]
  rhsContracting := [0]
  lhsNonContracting := [0, 1]
  rhsNonContracting := [1]
  lhsBatch := []
  rhsBatch := []
  wf := dot_S8x2048x5_S5x32_S8x2048x32_2_0_01_1_n_n_wf
def dot_S8x2048x32_S8x2048x32_S8x2048x2048_2_2_1_1_0_0 : DotDims S8x2048x32 S8x2048x32 S8x2048x2048 where
  lhsContracting := [2]
  rhsContracting := [2]
  lhsNonContracting := [1]
  rhsNonContracting := [1]
  lhsBatch := [0]
  rhsBatch := [0]
  wf := dot_S8x2048x32_S8x2048x32_S8x2048x2048_2_2_1_1_0_0_wf

class Facts : Prop extends Facts₀ where

variable [Facts]
-- ==== Proof.K.Body.lean ====
/-
  The kernel body at one grid point, for any float instance.

  A grid point (b, i) is handed six staging buffers: the whole feature slab of batch b (all 2048 key rows), the 512-row
  tile i of the same slab (the query rows), tile (b, i) of the adjacency weights, the two 5 × 32 projection matrices,
  and the output tile. The body reads the five inputs whole, leaves them as they were, and overwrites the whole output
  tile with one value: the skeleton's payload of the five loads. So after the body the output buffer holds that payload
  whatever it held before, and each input buffer still holds its block of the array behind it.

  The feature array stands behind TWO windows (the slab and the tile). Both only read it, so the pipeline may hold it
  as two halves of the full share, one per window; every other array is held whole.
-/
import proofs.«148850_j47725676593806_1_alg».proof.Proof.Gen.Kernel.Launch
import proofs.«148850_j47725676593806_1_alg».proof.Proof.Gen.Kernel.Skeleton
import proofs.«148850_j47725676593806_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not: where the pipeline does
    not fetch, the block index has not moved and the body left the block in place. One statement per input window. -/
theorem before_in_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rK : Rect S1x2048x5 := Rect.unit (s := S1x2048x5) ![0, 0, 0] S1x2048x5.size inb_S1x2048x5_S1x2048x5_0_0_0
abbrev rQ : Rect S1x512x5 := Rect.unit (s := S1x512x5) ![0, 0, 0] S1x512x5.size inb_S1x512x5_S1x512x5_0_0_0
abbrev rW : Rect S5x32 := Rect.unit (s := S5x32) ![0, 0] S5x32.size inb_S5x32_S5x32_0_0
abbrev rG : Rect S1x512x2048 := Rect.unit (s := S1x512x2048) ![0, 0, 0] S1x512x2048.size inb_S1x512x2048_S1x512x2048_0_0_0

/-- What the output tile's buffer holds after the body, from the five input buffers' contents (in window order:
    slab, query tile, adjacency tile, query projection, key projection): the one store's payload. -/
def outTile (x0 : Vec F S1x2048x5 .f32) (x1 : Vec F S1x512x5 .f32) (x2 : Vec F S1x512x2048 .f32) (x3 x4 : Vec F S5x32 .f32) :
    Vec F S1x512x2048 .f32 :=
  View.canon [⟨rG, k0_pay1 (View.ld x0 rK) (View.ld x1 rQ) (View.ld x4 rW) (View.ld x3 rW) (View.ld x2 rG)⟩]

/-- The one store is of the whole tile, so it covers it. -/
theorem cover_out (p0 : Vec F S1x512x2048 .f32) (y : S1x512x2048.Idx) :
    ∃ pc ∈ ([⟨rG, p0⟩] : List (View.Piece (Elt F) S1x512x2048 .f32)), y ∈ pc.1.set :=
  View.cover_of_tiled [⟨rG, p0⟩] S1x512x2048.size (by rfl) y

/-! ## The body's triple -/

set_option maxHeartbeats 1000000 in
/-- On whole staging buffers, the inputs at contents `x0 … x4` and the output at anything, the body runs to the
    continuation holding the inputs as they were and the output at `outTile` of them. -/
theorem sound_kernel (c : Dev nD) (E : Set ℕ) (i : grid0.Coords)
    (arg2 : Memref sig .tc .vmem S1x2048x5 .f32) (harg2 : arg2.IsWhole) (arg3 : Memref sig .tc .vmem S1x512x5 .f32) (harg3 : arg3.IsWhole)
    (arg4 : Memref sig .tc .vmem S1x512x2048 .f32) (harg4 : arg4.IsWhole) (arg5 : Memref sig .tc .vmem S5x32 .f32) (harg5 : arg5.IsWhole)
    (arg6 : Memref sig .tc .vmem S5x32 .f32) (harg6 : arg6.IsWhole) (arg7 : Memref sig .tc .vmem S1x512x2048 .f32) (harg7 : arg7.IsWhole)
    (x0 : Vec F S1x2048x5 .f32) (x1 : Vec F S1x512x5 .f32) (x2 : Vec F S1x512x2048 .f32) (x3 x4 : Vec F S5x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outTile x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the one pipeline on core `c`: the arrays as the region finds them; after the body at point `t`
    each input's buffer at its block and the output's at `outTile` of the input blocks; the invariant the core's
    scratch buffers at any contents (nothing is kept in them between points); nothing owed; the feature array's share dealt to its two windows as the two halves of
    the full share, every other input held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outTile (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in_of_0 m (dats m 0 c) (A_eq m c 0) (after_0 m c) t d
theorem before_1 (c : Dev nD) (t : Fin cfg0.N) (d) : (dats m 0 c).before 1 t d = iblk m c 1 t :=
  before_in_of_1 m (dats m 0 c) (A_eq m c 1) (after_1 m c) t d
theorem before_2 (c : Dev nD) (t : Fin cfg0.N) (d) : (dats m 0 c).before 2 t d = iblk m c 2 t :=
  before_in_of_2 m (dats m 0 c) (A_eq m c 2) (after_2 m c) t d
theorem before_3 (c : Dev nD) (t : Fin cfg0.N) (d) : (dats m 0 c).before 3 t d = iblk m c 3 t :=
  before_in_of_3 m (dats m 0 c) (A_eq m c 3) (after_3 m c) t d
theorem before_4 (c : Dev nD) (t : Fin cfg0.N) (d) : (dats m 0 c).before 4 t d = iblk m c 4 t :=
  before_in_of_4 m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedFrame.lean ====
/-
  The run of one pipelined region whose windows may share arrays, for a body that keeps nothing between grid points.

  The library's frame run asks that the windows' arrays be pairwise distinct, and then hands each window its array at
  the full share. When one array stands behind several windows — a kernel handed the same operand through two
  block maps, each only reading it — that does not apply, and the region is entered through the launch rule that lets
  the certificate say how each array's full share is dealt among the windows on it. This file states the resulting
  run once: given that deal (`hsplit`), a body obligation whose invariant is just the core's scratch buffers, and the
  program's shape up to the region, every weakly fair execution terminates with every window's array at what the
  pipeline's bookkeeping computes and every other unscoped buffer as the region found it.

  Also here: a buffer held whole is held as the two halves of the full share, the form the deal takes for an array read
  through two windows.
-/
import Idealize.ShloMosaic.Lib.Pipeline.Frame

noncomputable section

namespace Cert.LibSharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- A buffer held at the full share is held as the two halves of it, at the same contents. -/
theorem pointsTo_halves (ℓ : Loc nD τ sig) (f : ℓ.ty.Contents Val) :
    (ℓ ↦{fullShare} f : sProp 𝕄) ⊢ iprop((ℓ ↦{fullShare.left} f) ∗ ℓ ↦{fullShare.right} f) :=
  (pointsTo_share (PosShare.mem_left_op_right fullShare)).1

/-- THE RUN. `cfgs p` is the one region's pipeline; its windows' arrays need not be distinct (`hw`). The proof data's
    invariant is the core's scoped buffers that are no staging buffer, at any contents (`hΦ`): the body may use its
    scratch and carries nothing in it from point to point; it does not touch the generator register. `hsplit` deals the
    buffers behind the arrays, each whole at the region-entry contents `V`, to the windows at the proof data's shares. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) :=
  θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

/-- info: 'Cert.LibSharedFrame.θ_run_frame_shared' depends on axioms: [propext, Classical.choice, Quot.sound] -/
#guard_msgs in #print axioms θ_run_frame_shared

end Cert.LibSharedFrame

end
-- ==== Proof.K.Run.lean ====
/-
  The whole run of the program, for any float instance: from any memory with zero counters every weakly fair execution
  terminates without a fault, and afterwards each array behind a window holds what the pipeline's bookkeeping computes —
  an input array its launch contents, the result array its launch contents overwritten, block by block, by what the
  body left in the output tile at each grid point.

  The feature array is read through two windows. At the region's entry it is held whole; it is split into the two
  halves of the full share, one for each of its windows, and every other array goes to its one window whole.
-/
import proofs.«148850_j47725676593806_1_alg».proof.Proof.K.Body
import proofs.«148850_j47725676593806_1_alg».proof.Proof.LibSharedFrame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the arrays are held at -/

theorem share_0 (c : Dev nD) : (dats m 0 c).share 0 = fullShare.left := by unfold Dat.share; rfl
theorem share_1 (c : Dev nD) : (dats m 0 c).share 1 = fullShare.right := by unfold Dat.share; rfl
theorem share_2 (c : Dev nD) : (dats m 0 c).share 2 = fullShare := by unfold Dat.share; rfl
theorem share_3 (c : Dev nD) : (dats m 0 c).share 3 = fullShare := by unfold Dat.share; rfl
theorem share_4 (c : Dev nD) : (dats m 0 c).share 4 = fullShare := by unfold Dat.share; rfl
theorem share_5 (c : Dev nD) : (dats m 0 c).share 5 = fullShare := by unfold Dat.share; rfl

/-- A window's array, a whole buffer, held at its share at the entry contents, from the buffer behind it held at
    that share. -/
theorem arr_of_buf (c : Dev nD) (w : Fin cfg0.W) (q : PosShare TreeShare) (hq : (dats m 0 c).share w = q) :
    (((c.tc : Thread nD τ).loc (Pipeline.arrRef spec0 w)) ↦{q} V m c (Pipeline.arrRef spec0 w) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hq]
  exact .rfl

/-- The buffers behind the six windows are five: the four arguments and the result, one by one. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_arg3 ∗ Φ main_v0) :=
  bigSep_eq_bigSepL_of_eq [main_arg0, main_arg1, main_arg2, main_arg3, main_v0] (by decide) (by decide) Φ

/-- The five buffers behind the six windows, each held whole at its launch contents, make the pipeline's arrays at
    entry: the feature array's full share is the sum of its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrs, bigSep_W0]
  iintro ⟨H0, H1, H2, H3, H4⟩
  ihave H0' := (Cert.LibSharedFrame.pointsTo_halves _ _) $$ H0
  icases H0' with ⟨Hl, Hr⟩
  isplitl [Hl]; · iapply (arr_of_buf m c 0 _ (share_0 m c)); iexact Hl
  isplitl [Hr]; · iapply (arr_of_buf m c 1 _ (share_1 m c)); iexact Hr
  isplitl [H1]; · iapply (arr_of_buf m c 2 _ (share_2 m c)); iexact H1
  isplitl [H2]; · iapply (arr_of_buf m c 3 _ (share_3 m c)); iexact H2
  isplitl [H3]; · iapply (arr_of_buf m c 4 _ (share_4 m c)); iexact H3
  iapply (arr_of_buf m c 5 _ (share_5 m c)); iexact H4

/-! ## The run -/

/-- From any memory with zero counters every weakly fair execution terminates, every window's array at what the
    pipeline's bookkeeping computes after the last point, every other unscoped buffer as launched. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main (fun c => (body_obligation m c).loose) (fun _ _ => rfl) (V m)
    (Pipeline.hmain_region cfgs 0 defs₀ Variants.none m main fun c => (main_chain c).trans rfl)
    (hsplit m) (fun _ _ => rfl)

/-- info: 'Cert.Kernel.Hand.run_main' depends on axioms: [propext, Classical.choice, Quot.sound] -/
#guard_msgs in #print axioms run_main

/-! ## The frame -/

/-- The program runs to the end without a fault and leaves its four argument arrays as they were: each is an input
    array of the pipeline, never written back. (The feature array is read off its first window.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 0).trans (((dats m 0 c).arrAt_in 0 rfl _).trans (A_eq m c 0)),
       ((h c).1 2).trans (((dats m 0 c).arrAt_in 2 rfl _).trans (A_eq m c 2)),
       ((h c).1 3).trans (((dats m 0 c).arrAt_in 3 rfl _).trans (A_eq m c 3)),
       ((h c).1 4).trans (((dats m 0 c).arrAt_in 4 rfl _).trans (A_eq m c 4))⟩) (run_main m ρ)

/-- The same run with the result array named: after it the result array holds the bookkeeping's final contents of the
    output window, and the arguments are unchanged. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c).1 5,
       ((h c).1 0).trans (((dats m 0 c).arrAt_in 0 rfl _).trans (A_eq m c 0)),
       ((h c).1 2).trans (((dats m 0 c).arrAt_in 2 rfl _).trans (A_eq m c 2)),
       ((h c).1 3).trans (((dats m 0 c).arrAt_in 3 rfl _).trans (A_eq m c 3)),
       ((h c).1 4).trans (((dats m 0 c).arrAt_in 4 rfl _).trans (A_eq m c 4))⟩) (run_main m ρ)

end Cert.Kernel.Hand

end
-- ==== Proof.KI.Body.lean ====
/-
  The kernel body at one grid point, for any float instance.

  A grid point (b, i) is handed six staging buffers: the whole feature slab of batch b (all 2048 key rows), the 512-row
  tile i of the same slab (the query rows), tile (b, i) of the adjacency weights, the two 5 × 32 projection matrices,
  and the output tile. The body reads the five inputs whole, leaves them as they were, and overwrites the whole output
  tile with one value: the skeleton's payload of the five loads. So after the body the output buffer holds that payload
  whatever it held before, and each input buffer still holds its block of the array behind it.

  The feature array stands behind TWO windows (the slab and the tile). Both only read it, so the pipeline may hold it
  as two halves of the full share, one per window; every other array is held whole.
-/
import proofs.«148850_j47725676593806_1_alg».proof.Proof.Gen.KernelIdeal.Launch
import proofs.«148850_j47725676593806_1_alg».proof.Proof.Gen.KernelIdeal.Skeleton
import proofs.«148850_j47725676593806_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not: where the pipeline does
    not fetch, the block index has not moved and the body left the block in place. One statement per input window. -/
theorem before_in_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rK : Rect S1x2048x5 := Rect.unit (s := S1x2048x5) ![0, 0, 0] S1x2048x5.size inb_S1x2048x5_S1x2048x5_0_0_0
abbrev rQ : Rect S1x512x5 := Rect.unit (s := S1x512x5) ![0, 0, 0] S1x512x5.size inb_S1x512x5_S1x512x5_0_0_0
abbrev rW : Rect S5x32 := Rect.unit (s := S5x32) ![0, 0] S5x32.size inb_S5x32_S5x32_0_0
abbrev rG : Rect S1x512x2048 := Rect.unit (s := S1x512x2048) ![0, 0, 0] S1x512x2048.size inb_S1x512x2048_S1x512x2048_0_0_0

/-- What the output tile's buffer holds after the body, from the five input buffers' contents (in window order:
    slab, query tile, adjacency tile, query projection, key projection): the one store's payload. -/
def outTile (x0 : Vec F S1x2048x5 .f32) (x1 : Vec F S1x512x5 .f32) (x2 : Vec F S1x512x2048 .f32) (x3 x4 : Vec F S5x32 .f32) :
    Vec F S1x512x2048 .f32 :=
  View.canon [⟨rG, k0_pay1 (View.ld x0 rK) (View.ld x1 rQ) (View.ld x4 rW) (View.ld x3 rW) (View.ld x2 rG)⟩]

/-- The one store is of the whole tile, so it covers it. -/
theorem cover_out (p0 : Vec F S1x512x2048 .f32) (y : S1x512x2048.Idx) :
    ∃ pc ∈ ([⟨rG, p0⟩] : List (View.Piece (Elt F) S1x512x2048 .f32)), y ∈ pc.1.set :=
  View.cover_of_tiled [⟨rG, p0⟩] S1x512x2048.size (by rfl) y

/-! ## The body's triple -/

set_option maxHeartbeats 1000000 in
/-- On whole staging buffers, the inputs at contents `x0 … x4` and the output at anything, the body runs to the
    continuation holding the inputs as they were and the output at `outTile` of them. -/
theorem sound_kernel (c : Dev nD) (E : Set ℕ) (i : grid0.Coords)
    (arg2 : Memref sig .tc .vmem S1x2048x5 .f32) (harg2 : arg2.IsWhole) (arg3 : Memref sig .tc .vmem S1x512x5 .f32) (harg3 : arg3.IsWhole)
    (arg4 : Memref sig .tc .vmem S1x512x2048 .f32) (harg4 : arg4.IsWhole) (arg5 : Memref sig .tc .vmem S5x32 .f32) (harg5 : arg5.IsWhole)
    (arg6 : Memref sig .tc .vmem S5x32 .f32) (harg6 : arg6.IsWhole) (arg7 : Memref sig .tc .vmem S1x512x2048 .f32) (harg7 : arg7.IsWhole)
    (x0 : Vec F S1x2048x5 .f32) (x1 : Vec F S1x512x5 .f32) (x2 : Vec F S1x512x2048 .f32) (x3 x4 : Vec F S5x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outTile x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the one pipeline on core `c`: the arrays as the region finds them; after the body at point `t`
    each input's buffer at its block and the output's at `outTile` of the input blocks; the invariant the core's
    scratch buffers at any contents (nothing is kept in them between points); nothing owed; the feature array's share dealt to its two windows as the two halves of
    the full share, every other input held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outTile (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in_of_0 m (dats m 0 c) (A_eq m c 0) (after_0 m c) t d
theorem before_1 (c : Dev nD) (t : Fin cfg0.N) (d) : (dats m 0 c).before 1 t d = iblk m c 1 t :=
  before_in_of_1 m (dats m 0 c) (A_eq m c 1) (after_1 m c) t d
theorem before_2 (c : Dev nD) (t : Fin cfg0.N) (d) : (dats m 0 c).before 2 t d = iblk m c 2 t :=
  before_in_of_2 m (dats m 0 c) (A_eq m c 2) (after_2 m c) t d
theorem before_3 (c : Dev nD) (t : Fin cfg0.N) (d) : (dats m 0 c).before 3 t d = iblk m c 3 t :=
  before_in_of_3 m (dats m 0 c) (A_eq m c 3) (after_3 m c) t d
theorem before_4 (c : Dev nD) (t : Fin cfg0.N) (d) : (dats m 0 c).before 4 t d = iblk m c 4 t :=
  before_in_of_4 m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The whole run of the program, for any float instance: from any memory with zero counters every weakly fair execution
  terminates without a fault, and afterwards each array behind a window holds what the pipeline's bookkeeping computes —
  an input array its launch contents, the result array its launch contents overwritten, block by block, by what the
  body left in the output tile at each grid point.

  The feature array is read through two windows. At the region's entry it is held whole; it is split into the two
  halves of the full share, one for each of its windows, and every other array goes to its one window whole.
-/
import proofs.«148850_j47725676593806_1_alg».proof.Proof.KI.Body
import proofs.«148850_j47725676593806_1_alg».proof.Proof.LibSharedFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the arrays are held at -/

theorem share_0 (c : Dev nD) : (dats m 0 c).share 0 = fullShare.left := by unfold Dat.share; rfl
theorem share_1 (c : Dev nD) : (dats m 0 c).share 1 = fullShare.right := by unfold Dat.share; rfl
theorem share_2 (c : Dev nD) : (dats m 0 c).share 2 = fullShare := by unfold Dat.share; rfl
theorem share_3 (c : Dev nD) : (dats m 0 c).share 3 = fullShare := by unfold Dat.share; rfl
theorem share_4 (c : Dev nD) : (dats m 0 c).share 4 = fullShare := by unfold Dat.share; rfl
theorem share_5 (c : Dev nD) : (dats m 0 c).share 5 = fullShare := by unfold Dat.share; rfl

/-- A window's array, a whole buffer, held at its share at the entry contents, from the buffer behind it held at
    that share. -/
theorem arr_of_buf (c : Dev nD) (w : Fin cfg0.W) (q : PosShare TreeShare) (hq : (dats m 0 c).share w = q) :
    (((c.tc : Thread nD τ).loc (Pipeline.arrRef spec0 w)) ↦{q} V m c (Pipeline.arrRef spec0 w) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hq]
  exact .rfl

/-- The buffers behind the six windows are five: the four arguments and the result, one by one. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_arg3 ∗ Φ main_v0) :=
  bigSep_eq_bigSepL_of_eq [main_arg0, main_arg1, main_arg2, main_arg3, main_v0] (by decide) (by decide) Φ

/-- The five buffers behind the six windows, each held whole at its launch contents, make the pipeline's arrays at
    entry: the feature array's full share is the sum of its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrs, bigSep_W0]
  iintro ⟨H0, H1, H2, H3, H4⟩
  ihave H0' := (Cert.LibSharedFrame.pointsTo_halves _ _) $$ H0
  icases H0' with ⟨Hl, Hr⟩
  isplitl [Hl]; · iapply (arr_of_buf m c 0 _ (share_0 m c)); iexact Hl
  isplitl [Hr]; · iapply (arr_of_buf m c 1 _ (share_1 m c)); iexact Hr
  isplitl [H1]; · iapply (arr_of_buf m c 2 _ (share_2 m c)); iexact H1
  isplitl [H2]; · iapply (arr_of_buf m c 3 _ (share_3 m c)); iexact H2
  isplitl [H3]; · iapply (arr_of_buf m c 4 _ (share_4 m c)); iexact H3
  iapply (arr_of_buf m c 5 _ (share_5 m c)); iexact H4

/-! ## The run -/

/-- From any memory with zero counters every weakly fair execution terminates, every window's array at what the
    pipeline's bookkeeping computes after the last point, every other unscoped buffer as launched. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main (fun c => (body_obligation m c).loose) (fun _ _ => rfl) (V m)
    (Pipeline.hmain_region cfgs 0 defs₀ Variants.none m main fun c => (main_chain c).trans rfl)
    (hsplit m) (fun _ _ => rfl)

/-- info: 'Cert.KernelIdeal.Hand.run_main' depends on axioms: [propext, Classical.choice, Quot.sound] -/
#guard_msgs in #print axioms run_main

/-! ## The frame -/

/-- The program runs to the end without a fault and leaves its four argument arrays as they were: each is an input
    array of the pipeline, never written back. (The feature array is read off its first window.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 0).trans (((dats m 0 c).arrAt_in 0 rfl _).trans (A_eq m c 0)),
       ((h c).1 2).trans (((dats m 0 c).arrAt_in 2 rfl _).trans (A_eq m c 2)),
       ((h c).1 3).trans (((dats m 0 c).arrAt_in 3 rfl _).trans (A_eq m c 3)),
       ((h c).1 4).trans (((dats m 0 c).arrAt_in 4 rfl _).trans (A_eq m c 4))⟩) (run_main m ρ)

/-- The same run with the result array named: after it the result array holds the bookkeeping's final contents of the
    output window, and the arguments are unchanged. -/
theorem run_value : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c).1 5,
       ((h c).1 0).trans (((dats m 0 c).arrAt_in 0 rfl _).trans (A_eq m c 0)),
       ((h c).1 2).trans (((dats m 0 c).arrAt_in 2 rfl _).trans (A_eq m c 2)),
       ((h c).1 3).trans (((dats m 0 c).arrAt_in 3 rfl _).trans (A_eq m c 3)),
       ((h c).1 4).trans (((dats m 0 c).arrAt_in 4 rfl _).trans (A_eq m c 4))⟩) (run_main m ρ)

end Cert.KernelIdeal.Hand

end
-- ==== Proof.Spec.lean ====
/-
  The function both programs compute, index by index, on the extended reals.

  For a batch `b`, a query row `n` and a key row `j`:
    q(b,n,h) = Σ_d s(b,n,d)·Qw(d,h),   k(b,j,h) = Σ_d s(b,j,d)·Kw(d,h),
    score(b,n,j) = Σ_h q(b,n,h)·k(b,j,h),
    att(b,n,j) = score(b,n,j)² · g(b,n,j),
    out(b,n,j) = att(b,n,j) / (Σ_j' att(b,n,j') + ε),   ε the f32 nearest to 1/1000.
  Every sum is a finite sum in the commutative monoid of the extended reals, so the order in
  which a program forms it does not matter; the quotient is the total division of the ideal floats.
-/
import Idealize.ShloMosaic.PureOps.Ideal
import Idealize.ShloMosaic.Lib.ValueIdx

noncomputable section

namespace Cert.Spec

open Idealize.ShloMosaic Idealize.ShloMosaic.ValueIdx
open scoped BigOperators

/-- The three literal shapes of the arguments: the features, the adjacency weights, a projection matrix. -/
abbrev ShS : Shape := ⟨3, ![8, 2048, 5]⟩
abbrev ShG : Shape := ⟨3, ![8, 2048, 2048]⟩
abbrev ShW : Shape := ⟨2, ![5, 32]⟩

/-- Row `n` of batch `b` projected by `w`, at hidden coordinate `h`: Σ_d s(b,n,d)·w(d,h). -/
def proj (s : ShS.Idx → EReal) (w : ShW.Idx → EReal) (b : Fin 8) (n : Fin 2048) (h : Fin 32) : EReal :=
  ∑ d : Fin 5, s (ix3 b n d) * w (ix2 d h)

/-- The score of query row `n` against key row `j` in batch `b`: the inner product of their projections. -/
def score (s : ShS.Idx → EReal) (qw kw : ShW.Idx → EReal) (b : Fin 8) (n j : Fin 2048) : EReal :=
  ∑ h : Fin 32, proj s qw b n h * proj s kw b j h

/-- The unnormalised weight: the squared score times the adjacency weight. -/
def att (s : ShS.Idx → EReal) (g : ShG.Idx → EReal) (qw kw : ShW.Idx → EReal) (b : Fin 8) (n j : Fin 2048) : EReal :=
  score s qw kw b n j * score s qw kw b n j * g (ix3 b n j)

/-- The row's normaliser: the sum of the row's weights plus ε. -/
def denom (s : ShS.Idx → EReal) (g : ShG.Idx → EReal) (qw kw : ShW.Idx → EReal) (b : Fin 8) (n : Fin 2048) : EReal :=
  (∑ j : Fin 2048, att s g qw kw b n j) + Ideal.ofBits .f32 0x3A83126F#32

/-- The result: each weight divided by its row's normaliser. -/
def G (s : ShS.Idx → EReal) (g : ShG.Idx → EReal) (qw kw : ShW.Idx → EReal) : ShG.Idx → EReal := fun i =>
  Ideal.div (att s g qw kw (i 0) (i 1) (i 2)) (denom s g qw kw (i 0) (i 1))

/-! ## The same, one block at a time

A grid point holds one batch's whole feature slab `xk` (all 2048 key rows), a 512-row tile `xq` of the same slab
(the query rows), the matching 512 × 2048 tile `gb` of the adjacency weights, and the two projection matrices.
The tile of the result it computes is the formula above with the rows read off the blocks. -/

abbrev ShKB : Shape := ⟨3, ![1, 2048, 5]⟩
abbrev ShQB : Shape := ⟨3, ![1, 512, 5]⟩
abbrev ShGB : Shape := ⟨3, ![1, 512, 2048]⟩

/-- The score of the tile's query row `p` against key row `j`. -/
def scoreB (xk : ShKB.Idx → EReal) (xq : ShQB.Idx → EReal) (kw qw : ShW.Idx → EReal) (p : Fin 512) (j : Fin 2048) : EReal :=
  ∑ h : Fin 32, (∑ d : Fin 5, xq (ix3 (0 : Fin 1) p d) * qw (ix2 d h)) * (∑ d : Fin 5, xk (ix3 (0 : Fin 1) j d) * kw (ix2 d h))

/-- The tile's unnormalised weight at (p, j). -/
def attB (xk : ShKB.Idx → EReal) (xq : ShQB.Idx → EReal) (kw qw : ShW.Idx → EReal) (gb : ShGB.Idx → EReal)
    (p : Fin 512) (j : Fin 2048) : EReal :=
  scoreB xk xq kw qw p j * scoreB xk xq kw qw p j * gb (ix3 (0 : Fin 1) p j)

/-- The tile of the result at (p, j). -/
def outB (xk : ShKB.Idx → EReal) (xq : ShQB.Idx → EReal) (kw qw : ShW.Idx → EReal) (gb : ShGB.Idx → EReal)
    (p : Fin 512) (j : Fin 2048) : EReal :=
  Ideal.div (attB xk xq kw qw gb p j) ((∑ j' : Fin 2048, attB xk xq kw qw gb p j') + Ideal.ofBits .f32 0x3A83126F#32)

theorem G_ix3 (s : ShS.Idx → EReal) (g : ShG.Idx → EReal) (qw kw : ShW.Idx → EReal) (b : Fin 8) (n j : Fin 2048) :
    G s g qw kw (ix3 b n j) = Ideal.div (att s g qw kw b n j) (denom s g qw kw b n) := rfl

end Cert.Spec

end
-- ==== Proof.RefIsSpec.lean ====
/-
  The reference program, read one index at a time, is the specification's function G.

  The reference forms, for a batch b, a query row n and a key row j:
    q = s·Qw and k = s·Kw (two contractions over the 5 features),
    the score q(b,n,·)·k(b,j,·) (a contraction over the 32 hidden coordinates),
    its square times the adjacency weight g(b,n,j),
    the row sum of these over j, plus ε, and the quotient.
  Each stage is a finite sum or a pointwise operation on the extended reals, so reading it at the
  index (b, n, j) gives, term by term, the corresponding definition of the specification.
-/
import proofs.«148850_j47725676593806_1_alg».proof.Proof.Gen.ReferenceIdeal.Read
import proofs.«148850_j47725676593806_1_alg».proof.Proof.Spec

noncomputable section

namespace Cert.RefIsSpec

open Cert.ReferenceIdeal Cert.ReferenceIdeal.Read Idealize.ShloMosaic Idealize.ShloMosaic.ValueIdx
open scoped BigOperators

/-- The query projection: stage 0 at (b, n, h) is Σ_d s(b,n,d)·Qw(d,h). -/
theorem v0_at (x0 : (⟨S8x2048x5, .f32⟩ : BufTy).Contents (Elt Ideal)) (x2 : (⟨S5x32, .f32⟩ : BufTy).Contents (Elt Ideal))
    (b : Fin 8) (n : Fin 2048) (h : Fin 32) :
    val_main_v0 (F := Ideal) x0 x2 (ix3 b n h) = Cert.Spec.proj x0 x2 b n h := by
  rw [val_main_v0_apply]
  unfold Cert.Spec.proj
  refine Finset.sum_congr rfl fun d _ => ?_
  have e1 : lidx_main_v0 (ix3 b n h) d = ix3 b n d :=
    funext fun a => Fin.ext (by match a with | ⟨0, _⟩ => rfl | ⟨1, _⟩ => rfl | ⟨2, _⟩ => rfl)
  have e2 : ridx_main_v0 (ix3 b n h) d = ix2 d h :=
    funext fun a => Fin.ext (by match a with | ⟨0, _⟩ => rfl | ⟨1, _⟩ => rfl)
  rw [e1, e2]

/-- The key projection: stage 1 at (b, j, h) is Σ_d s(b,j,d)·Kw(d,h). -/
theorem v1_at (x0 : (⟨S8x2048x5, .f32⟩ : BufTy).Contents (Elt Ideal)) (x3 : (⟨S5x32, .f32⟩ : BufTy).Contents (Elt Ideal))
    (b : Fin 8) (j : Fin 2048) (h : Fin 32) :
    val_main_v1 (F := Ideal) x0 x3 (ix3 b j h) = Cert.Spec.proj x0 x3 b j h := by
  rw [val_main_v1_apply]
  unfold Cert.Spec.proj
  refine Finset.sum_congr rfl fun d _ => ?_
  have e1 : lidx_main_v1 (ix3 b j h) d = ix3 b j d :=
    funext fun a => Fin.ext (by match a with | ⟨0, _⟩ => rfl | ⟨1, _⟩ => rfl | ⟨2, _⟩ => rfl)
  have e2 : ridx_main_v1 (ix3 b j h) d = ix2 d h :=
    funext fun a => Fin.ext (by match a with | ⟨0, _⟩ => rfl | ⟨1, _⟩ => rfl)
  rw [e1, e2]

/-- The score: stage 2 at (b, n, j) is Σ_h q(b,n,h)·k(b,j,h). -/
theorem v2_at (x0 : (⟨S8x2048x5, .f32⟩ : BufTy).Contents (Elt Ideal)) (x2 x3 : (⟨S5x32, .f32⟩ : BufTy).Contents (Elt Ideal))
    (b : Fin 8) (n j : Fin 2048) :
    val_main_v2 (F := Ideal) x0 x2 x3 (ix3 b n j) = Cert.Spec.score x0 x2 x3 b n j := by
  rw [val_main_v2_apply]
  unfold Cert.Spec.score
  refine Finset.sum_congr rfl fun h _ => ?_
  have e1 : lidx_main_v2 (ix3 b n j) h = ix3 b n h :=
    funext fun a => Fin.ext (by match a with | ⟨0, _⟩ => rfl | ⟨1, _⟩ => rfl | ⟨2, _⟩ => rfl)
  have e2 : ridx_main_v2 (ix3 b n j) h = ix3 b j h :=
    funext fun a => Fin.ext (by match a with | ⟨0, _⟩ => rfl | ⟨1, _⟩ => rfl | ⟨2, _⟩ => rfl)
  rw [e1, e2, v0_at, v1_at]

/-- The unnormalised weight: stage 4 at (b, n, j) is score² · g(b,n,j). -/
theorem v4_at (x0 : (⟨S8x2048x5, .f32⟩ : BufTy).Contents (Elt Ideal)) (x1 : (⟨S8x2048x2048, .f32⟩ : BufTy).Contents (Elt Ideal))
    (x2 x3 : (⟨S5x32, .f32⟩ : BufTy).Contents (Elt Ideal)) (b : Fin 8) (n j : Fin 2048) :
    val_main_v4 (F := Ideal) x0 x1 x2 x3 (ix3 b n j) = Cert.Spec.att x0 x1 x2 x3 b n j := by
  rw [val_main_v4_apply, val_main_v3_apply, v2_at]
  rfl

/-- The row sum: stage 5 at (b, n) is Σ_j att(b,n,j) (the sum starts from zero). -/
theorem v5_at (x0 : (⟨S8x2048x5, .f32⟩ : BufTy).Contents (Elt Ideal)) (x1 : (⟨S8x2048x2048, .f32⟩ : BufTy).Contents (Elt Ideal))
    (x2 x3 : (⟨S5x32, .f32⟩ : BufTy).Contents (Elt Ideal)) (b : Fin 8) (n : Fin 2048) :
    val_main_v5 (F := Ideal) x0 x1 x2 x3 (ix2 b n) = ∑ j : Fin 2048, Cert.Spec.att x0 x1 x2 x3 b n j := by
  rw [val_main_v5_apply, val_main_cst_apply, Ideal.ofBits_def, Ideal.ofBits_zero_f32, zero_add]
  refine Finset.sum_congr rfl fun j _ => ?_
  have e : idx_main_v5 (ix2 b n) j = ix3 b n j :=
    funext fun a => Fin.ext (by match a with | ⟨0, _⟩ => rfl | ⟨1, _⟩ => rfl | ⟨2, _⟩ => rfl)
  rw [e, v4_at]

/-- The normaliser: stage 9 at (b, n, j) is the row sum plus ε, whatever the column j is. -/
theorem v9_at (x0 : (⟨S8x2048x5, .f32⟩ : BufTy).Contents (Elt Ideal)) (x1 : (⟨S8x2048x2048, .f32⟩ : BufTy).Contents (Elt Ideal))
    (x2 x3 : (⟨S5x32, .f32⟩ : BufTy).Contents (Elt Ideal)) (b : Fin 8) (n j : Fin 2048) :
    val_main_v9 (F := Ideal) x0 x1 x2 x3 (ix3 b n j) = Cert.Spec.denom x0 x1 x2 x3 b n := by
  have e6 : idx_main_v6 (idx_main_v9 (ix3 b n j)) = ix2 b n :=
    funext fun a => Fin.ext (by match a with | ⟨0, _⟩ => rfl | ⟨1, _⟩ => rfl)
  rw [val_main_v9_apply, val_main_v8_apply, val_main_v6_apply, val_main_v7_apply, val_main_cst_0_apply, e6, v5_at]
  rfl

/-- The reference's result is the specification's function. -/
theorem ref_is_G (x0 : (⟨S8x2048x5, .f32⟩ : BufTy).Contents (Elt Ideal)) (x1 : (⟨S8x2048x2048, .f32⟩ : BufTy).Contents (Elt Ideal))
    (x2 x3 : (⟨S5x32, .f32⟩ : BufTy).Contents (Elt Ideal)) :
    Cert.ReferenceIdeal.Read.val_main_v10 (F := Ideal) x0 x1 x2 x3 = Cert.Spec.G x0 x1 x2 x3 := by
  funext i
  obtain ⟨b, n, j, rfl⟩ : ∃ (b : Fin 8) (n j : Fin 2048), i = ix3 b n j := ⟨i 0, i 1, i 2, eq_ix3 i⟩
  rw [val_main_v10_apply, v4_at, v9_at, Cert.Spec.G_ix3]
  rfl

end Cert.RefIsSpec

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.LibRowDots.lean ====
/-
  Row-wise dot products, two ways, at the exact instance.

  For two n × d arrays a and b: a kernel's lane sum of the elementwise product a ∘ b at row p is ∑ₖ a (p, k) · b (p, k);
  the host's sum of the same product over the second axis, started from the initial value v, is v + ∑ₖ a (p, k) · b (p, k).
  Both are sums over the coordinates of the dropped axis: the index over row p with coordinate k inserted is (p, k).
-/
import Idealize.ShloMosaic.Lib.ValueIdx
import Idealize.ShloMosaic.Lib.IdealHost
import Idealize.ShloMosaic.Lib.Pipeline.Value
import Idealize.ShloMosaic.PureOps.Ideal.Laws
import proofs.«148850_j47725676593806_1_alg».proof.Proof.LibColBcast

noncomputable section

namespace Cert.LibRowDots

open Idealize.ShloMosaic Idealize.ShloMosaic.ValueIdx

variable {n d : ℕ}

/-- Row p with coordinate k inserted on the dropped second axis is the index (p, k). -/
theorem lift_row (h : Shape.Reduces (⟨2, ![n, d]⟩ : Shape) [1] ⟨1, ![n]⟩) (p : Fin n) (k : Fin d) :
    h.lift (ix1 p) k = ix2 p k := by
  funext a
  apply Fin.ext
  match a with
  | ⟨0, _⟩ => rfl
  | ⟨1, _⟩ => rfl

/-- A kernel's lane sum over the second axis, at row p. -/
theorem laneSum_apply (src : FVec Ideal ⟨2, ![n, d]⟩ .f32) (h : Shape.Reduces (⟨2, ![n, d]⟩ : Shape) [1] ⟨1, ![n]⟩)
    (hφ : FKind.Formats .f32) (hacc : (0x00000000#32 : BitVec 32) = FKind.add.neutral .f32 hφ) (p : Fin n) :
    multiReduction .add [1] ⟨1, ![n]⟩ src 0x00000000#32 h hφ hacc (ix1 p) = ∑ k : Fin d, src (ix2 p k) :=
  (Ideal.multiReduction_add_single src 0x00000000#32 h hφ hacc (ix1 p)).trans
    (Finset.sum_congr rfl fun k _ => congrArg src (lift_row h p k))

/-- The host's sum over the second axis from an initial value, at row p. -/
theorem hostSum_apply {u : Shape} (x : FVec Ideal ⟨2, ![n, d]⟩ .f32) (init : u.Idx → Ideal .f32)
    (h' : (⟨2, ![n, d]⟩ : Shape).ReducesTo [1] ⟨1, ![n]⟩) (h : Shape.Reduces (⟨2, ![n, d]⟩ : Shape) [1] ⟨1, ![n]⟩)
    (hu : 0 < u.numel) (p : Fin n) :
    Host.reduceAdd x init h' hu (ix1 p) = init (Shape.Idx.first hu) + ∑ k : Fin d, x (ix2 p k) :=
  (hostReduceAdd_apply x init h' hu (ix1 p)).trans
    ((Ideal.hostReduceAdd_single h' h x (init (Shape.Idx.first hu)) (ix1 p)).trans
      (congrArg (init (Shape.Idx.first hu) + ·) (Finset.sum_congr rfl fun k _ => congrArg x (lift_row h p k))))

end Cert.LibRowDots

end
-- ==== Proof.PayloadAt.lean ====
/-
  The kernel body's arithmetic, read at one index.

  The body reshapes the key slab (1×2048×5) and the query tile (1×512×5) to two axes, projects them
  (k = keys · Kw, q = queries · Qw), transposes k, forms the scores q · kᵀ, squares them, weights them by the adjacency
  tile, sums each row over the lanes, adds ε to the row sums, lays the column of normalisers against the rows and
  divides. Read at (0, p, j) this is the block form of the specification at (p, j): each reshape, the transpose, the
  three matrix products, the lane sum and the column broadcast are read at explicit coordinates, and the pointwise
  operations are read through.
-/
import proofs.«148850_j47725676593806_1_alg».proof.Proof.Gen.KernelIdeal.Skeleton
import proofs.«148850_j47725676593806_1_alg».proof.Proof.Spec
import proofs.«148850_j47725676593806_1_alg».proof.Proof.LibDense
import proofs.«148850_j47725676593806_1_alg».proof.Proof.LibColBcast
import proofs.«148850_j47725676593806_1_alg».proof.Proof.LibRowDots
import Idealize.ShloMosaic.Lib.ValueIdx
import Idealize.ShloMosaic.Lib.Pipeline.Value
import Idealize.ShloMosaic.Lib.ValueLayout
import Idealize.ShloMosaic.PureOps.Ideal.Laws

noncomputable section

namespace Cert.PayloadAt

open Cert.KernelIdeal Cert.KernelIdeal.Gen Idealize.ShloMosaic Idealize.ShloMosaic.ValueIdx
open scoped BigOperators

/-! ## The three products' dimension numbers are the plain ones

Each record contracts the left operand's second axis with the right operand's first, keeps the other two axes in order
and has no batch axis: field by field it is the plain M×K by K×N record (the well-formedness field is a proof). -/

theorem dotK_eq : dot_S2048x5_S5x32_S2048x32_1_0_0_1_n_n = DotDims.plain 2048 5 32 := rfl
theorem dotQ_eq : dot_S512x5_S5x32_S512x32_1_0_0_1_n_n = DotDims.plain 512 5 32 := rfl
theorem dotS_eq : dot_S512x32_S32x2048_S512x2048_1_0_0_1_n_n = DotDims.plain 512 32 2048 := rfl

/-! ## The intermediate arrays, named -/

/-- The key projection k = keys · Kw, 2048 × 32. -/
def kV (v0 : Vec Ideal S1x2048x5 .f32) (v4 : Vec Ideal S5x32 .f32) : FVec Ideal S2048x32 .f32 :=
  matmul (F := Ideal) (φ₁ := .f32) (φ₂ := .f32) dot_S2048x5_S5x32_S2048x32_1_0_0_1_n_n none
    (shapeCast S2048x5 v0 Gen.shapeCasts_S1x2048x5_S2048x5) v4 (constant (F := Ideal) S2048x32 .f32 0x00000000#32)

/-- The query projection q = queries · Qw, 512 × 32. -/
def qV (v2 : Vec Ideal S1x512x5 .f32) (v6 : Vec Ideal S5x32 .f32) : FVec Ideal S512x32 .f32 :=
  matmul (F := Ideal) (φ₁ := .f32) (φ₂ := .f32) dot_S512x5_S5x32_S512x32_1_0_0_1_n_n none
    (shapeCast S512x5 v2 Gen.shapeCasts_S1x512x5_S512x5) v6 (constant (F := Ideal) S512x32 .f32 0x00000000#32)

/-- The scores q · kᵀ, 512 × 2048. -/
def sV (v0 : Vec Ideal S1x2048x5 .f32) (v2 : Vec Ideal S1x512x5 .f32) (v4 v6 : Vec Ideal S5x32 .f32) :
    FVec Ideal S512x2048 .f32 :=
  matmul (F := Ideal) (φ₁ := .f32) (φ₂ := .f32) dot_S512x32_S32x2048_S512x2048_1_0_0_1_n_n none (qV v2 v6)
    (transpose S32x2048 [1, 0] (kV v0 v4) Gen.transposes_S2048x32_p1_0_S32x2048)
    (constant (F := Ideal) S512x2048 .f32 0x00000000#32)

/-- The unnormalised weights: the squared scores times the adjacency tile, 512 × 2048. -/
def aV (v0 : Vec Ideal S1x2048x5 .f32) (v2 : Vec Ideal S1x512x5 .f32) (v4 v6 : Vec Ideal S5x32 .f32)
    (v11 : Vec Ideal S1x512x2048 .f32) : FVec Ideal S512x2048 .f32 :=
  mulf (mulf (sV v0 v2 v4 v6) (sV v0 v2 v4 v6)) (shapeCast S512x2048 v11 Gen.shapeCasts_S1x512x2048_S512x2048)

/-! ## Each read at an index -/

/-- The key projection at (j, h): Σ_d keys(0, j, d) · Kw(d, h). -/
theorem k_at (v0 : Vec Ideal S1x2048x5 .f32) (v4 : Vec Ideal S5x32 .f32) (j : Fin 2048) (h : Fin 32) :
    kV v0 v4 (ix2 j h) = ∑ d : Fin 5, v0 (ix3 (0 : Fin 1) j d) * v4 (ix2 d h) := by
  unfold kV
  rw [dotK_eq]
  refine (Cert.LibDense.plain_matmul_apply none _ v4 j h).trans ?_
  refine Finset.sum_congr rfl fun d _ => ?_
  rw [shapeCast_1ab_ab_apply]

/-- The query projection at (p, h): Σ_d queries(0, p, d) · Qw(d, h). -/
theorem q_at (v2 : Vec Ideal S1x512x5 .f32) (v6 : Vec Ideal S5x32 .f32) (p : Fin 512) (h : Fin 32) :
    qV v2 v6 (ix2 p h) = ∑ d : Fin 5, v2 (ix3 (0 : Fin 1) p d) * v6 (ix2 d h) := by
  unfold qV
  rw [dotQ_eq]
  refine (Cert.LibDense.plain_matmul_apply none _ v6 p h).trans ?_
  refine Finset.sum_congr rfl fun d _ => ?_
  rw [shapeCast_1ab_ab_apply]

/-- The scores at (p, j): Σ_h q(p, h) · k(j, h), the block form of the specification's score. -/
theorem s_at (v0 : Vec Ideal S1x2048x5 .f32) (v2 : Vec Ideal S1x512x5 .f32) (v4 v6 : Vec Ideal S5x32 .f32)
    (p : Fin 512) (j : Fin 2048) : sV v0 v2 v4 v6 (ix2 p j) = Cert.Spec.scoreB v0 v2 v4 v6 p j := by
  unfold sV
  rw [dotS_eq]
  refine (Cert.LibDense.plain_matmul_apply none (qV v2 v6) _ p j).trans ?_
  unfold Cert.Spec.scoreB
  refine Finset.sum_congr rfl fun h _ => ?_
  rw [transpose_ix2_apply, q_at, k_at]

/-- The unnormalised weight at (p, j). -/
theorem a_at (v0 : Vec Ideal S1x2048x5 .f32) (v2 : Vec Ideal S1x512x5 .f32) (v4 v6 : Vec Ideal S5x32 .f32)
    (v11 : Vec Ideal S1x512x2048 .f32) (p : Fin 512) (j : Fin 2048) :
    aV v0 v2 v4 v6 v11 (ix2 p j) = Cert.Spec.attB v0 v2 v4 v6 v11 p j := by
  unfold aV Cert.Spec.attB
  rw [mulf_apply, mulf_apply, s_at, shapeCast_1ab_ab_apply]

/-- A row's sum of weights: the lane sum of the weights at row p is Σ_j' att(p, j'). -/
theorem d_at (v0 : Vec Ideal S1x2048x5 .f32) (v2 : Vec Ideal S1x512x5 .f32) (v4 v6 : Vec Ideal S5x32 .f32)
    (v11 : Vec Ideal S1x512x2048 .f32) (hr : Shape.Reduces S512x2048 [1] S512) (hφ : FKind.Formats .f32)
    (hacc : (0x00000000#32 : BitVec 32) = FKind.add.neutral .f32 hφ) (p : Fin 512) :
    multiReduction (F := Ideal) .add [1] S512 (aV v0 v2 v4 v6 v11) 0x00000000#32 hr hφ hacc (ix1 p)
      = ∑ j' : Fin 2048, Cert.Spec.attB v0 v2 v4 v6 v11 p j' :=
  (Cert.LibRowDots.laneSum_apply (n := 512) (d := 2048) (aV v0 v2 v4 v6 v11) hr hφ hacc p).trans
    (Finset.sum_congr rfl fun j' _ => a_at v0 v2 v4 v6 v11 p j')

/-- The body's arithmetic over the named arrays. -/
theorem pay_eq (v0 : Vec Ideal S1x2048x5 .f32) (v2 : Vec Ideal S1x512x5 .f32) (v4 v6 : Vec Ideal S5x32 .f32)
    (v11 : Vec Ideal S1x512x2048 .f32) :
    k0_pay1 (F := Ideal) v0 v2 v4 v6 v11
      = shapeCast S1x512x2048
          (divf (aV v0 v2 v4 v6 v11)
            (broadcastTo S512x2048
              (addf
                (shapeCast S512x1
                  (multiReduction (F := Ideal) .add [1] S512 (aV v0 v2 v4 v6 v11) 0x00000000#32
                    Gen.reduces_S512x2048_S512 (.inl rfl) rfl)
                  Gen.shapeCasts_S512_S512x1)
                (broadcast S512x1 (Scalar.ofBits (F := Ideal) .f32 0x3A83126F#32)))
              Gen.broadcasts_S512x1_S512x2048))
          Gen.shapeCasts_S512x2048_S1x512x2048 := rfl

/-- The kernel's payload at (0, p, j) is the block form of the specification at (p, j). -/
theorem pay_at (v0 : Vec Ideal S1x2048x5 .f32) (v2 : Vec Ideal S1x512x5 .f32) (v4 v6 : Vec Ideal S5x32 .f32)
    (v11 : Vec Ideal S1x512x2048 .f32) (p : Fin 512) (j : Fin 2048) :
    k0_pay1 (F := Ideal) v0 v2 v4 v6 v11 (ix3 (0 : Fin 1) p j) = Cert.Spec.outB v0 v2 v4 v6 v11 p j := by
  rw [pay_eq, shapeCast_ab_1ab_apply, divf_apply, Cert.LibColBcast.broadcastTo_a1_ab_apply, addf_apply,
    Cert.LibColBcast.shapeCast_a_a1_apply, broadcast_apply, a_at]
  exact congrArg (fun s => Ideal.div (Cert.Spec.attB v0 v2 v4 v6 v11 p j) (s + Ideal.ofBits .f32 0x3A83126F#32))
    (d_at v0 v2 v4 v6 v11 _ _ _ p)

end Cert.PayloadAt

end
-- ==== Proof.KernelValue.lean ====
/-
  From the tiles to the whole array.

  Grid point t = 4·b + i holds batch b's whole feature slab, rows 512·i … 512·i + 511 of the same slab as the query
  tile, the matching 512 × 2048 tile of the adjacency weights and the two projection matrices, and writes back tile
  (b, i) of the result. Given that the tile it writes is the block formula of the specification on what it holds, each
  written tile is the specification's function G restricted to the tile's rows, the 32 tiles cover the array, and so
  the array ends holding G of the four argument arrays.
-/
import proofs.«148850_j47725676593806_1_alg».proof.Proof.KI.Body
import proofs.«148850_j47725676593806_1_alg».proof.Proof.Spec
import Idealize.ShloMosaic.Lib.Pipeline.Value
import Idealize.ShloMosaic.Lib.ValueIdx

noncomputable section

namespace Cert.KernelValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The zero offsets of a whole-buffer access, rank 3 and rank 2. -/
theorem zero3 : (![0, 0, 0] : Fin 3 → Nat) = fun _ => 0 := funext fun a => by fin_cases a <;> rfl
theorem zero2 : (![0, 0] : Fin 2 → Nat) = fun _ => 0 := funext fun a => by fin_cases a <;> rfl

/-! ## The block formula on rows of the arrays is G on those rows -/

/-- If the slab holds batch b's rows, the query tile holds the rows row(p) of the same batch, the adjacency tile
    the same rows of the weights, and the two projection blocks the projection matrices, then the block formula at
    (p, j) is G at (b, row(p), j): the two are the same finite sums of the same terms. -/
theorem outB_eq_G (s : Cert.Spec.ShS.Idx → EReal) (g : Cert.Spec.ShG.Idx → EReal) (qw kw : Cert.Spec.ShW.Idx → EReal)
    (xk : Cert.Spec.ShKB.Idx → EReal) (xq : Cert.Spec.ShQB.Idx → EReal) (kwb qwb : Cert.Spec.ShW.Idx → EReal)
    (gb : Cert.Spec.ShGB.Idx → EReal) (b : Fin 8) (row : Fin 512 → Fin 2048)
    (hk : ∀ (j : Fin 2048) (d : Fin 5), xk (ix3 (0 : Fin 1) j d) = s (ix3 b j d))
    (hq : ∀ (p : Fin 512) (d : Fin 5), xq (ix3 (0 : Fin 1) p d) = s (ix3 b (row p) d))
    (hkw : ∀ (d : Fin 5) (h : Fin 32), kwb (ix2 d h) = kw (ix2 d h))
    (hqw : ∀ (d : Fin 5) (h : Fin 32), qwb (ix2 d h) = qw (ix2 d h))
    (hg : ∀ (p : Fin 512) (j : Fin 2048), gb (ix3 (0 : Fin 1) p j) = g (ix3 b (row p) j))
    (p : Fin 512) (j : Fin 2048) :
    Cert.Spec.outB xk xq kwb qwb gb p j = Cert.Spec.G s g qw kw (ix3 b (row p) j) := by
  rw [Cert.Spec.G_ix3]
  unfold Cert.Spec.outB Cert.Spec.attB Cert.Spec.scoreB Cert.Spec.denom Cert.Spec.att Cert.Spec.score Cert.Spec.proj
  simp only [hk, hq, hg, hkw, hqw]

/-! ## Where each window's block sits at a grid point -/

/-- The block indices at point t: the slab is block (t/4, 0, 0); the query tile, the adjacency tile and the output
    tile are block (t/4, t%4, 0); the projections are block (0, 0). Decided over the 32 points. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0) :=
  (by decide +kernel : ∀ t : Fin grid0.N, _)

/-- The slab's row j is row (b, j) of the feature array, b = t/4. -/
theorem slab_at (c : Dev nD) (t : Fin cfg0.N) (b : Fin 8) (hb : b.val = t.val / 4) (j : Fin 2048) (d : Fin 5) :
    (iblk m c 0 t : Vec Ideal S1x2048x5 .f32) (ix3 (0 : Fin 1) j d) = (V m c main_arg0 : S8x2048x5.Idx → EReal) (ix3 b j d) := by
  obtain ⟨⟨a0, a1, a2⟩, -⟩ := idx_facts t
  unfold iblk
  rw [View.read_apply]
  show V m c main_arg0 _ = V m c main_arg0 _
  refine congrArg _ ?_
  funext a
  apply Fin.ext
  match a with
  | ⟨0, _⟩ => show win0_0.index t (0 : Fin 3) * 1 + 1 * 0 = b.val; omega
  | ⟨1, _⟩ => show win0_0.index t (1 : Fin 3) * 2048 + 1 * j.val = j.val; omega
  | ⟨2, _⟩ => show win0_0.index t (2 : Fin 3) * 5 + 1 * d.val = d.val; omega

/-- The query tile's row p is row (b, r) of the feature array, b = t/4 and r = 512·(t%4) + p. -/
theorem qtile_at (c : Dev nD) (t : Fin cfg0.N) (b : Fin 8) (hb : b.val = t.val / 4) (p : Fin 512) (r : Fin 2048)
    (hr : r.val = 512 * (t.val % 4) + p.val) (d : Fin 5) :
    (iblk m c 1 t : Vec Ideal S1x512x5 .f32) (ix3 (0 : Fin 1) p d) = (V m c main_arg0 : S8x2048x5.Idx → EReal) (ix3 b r d) := by
  obtain ⟨-, ⟨a0, a1, a2⟩, -⟩ := idx_facts t
  unfold iblk
  rw [View.read_apply]
  show V m c main_arg0 _ = V m c main_arg0 _
  refine congrArg _ ?_
  funext a
  apply Fin.ext
  match a with
  | ⟨0, _⟩ => show win0_1.index t (0 : Fin 3) * 1 + 1 * 0 = b.val; omega
  | ⟨1, _⟩ => show win0_1.index t (1 : Fin 3) * 512 + 1 * p.val = r.val; omega
  | ⟨2, _⟩ => show win0_1.index t (2 : Fin 3) * 5 + 1 * d.val = d.val; omega

/-- The adjacency tile's (p, j) is (b, r, j) of the adjacency array, b = t/4 and r = 512·(t%4) + p. -/
theorem adj_at (c : Dev nD) (t : Fin cfg0.N) (b : Fin 8) (hb : b.val = t.val / 4) (p : Fin 512) (r : Fin 2048)
    (hr : r.val = 512 * (t.val % 4) + p.val) (j : Fin 2048) :
    (iblk m c 2 t : Vec Ideal S1x512x2048 .f32) (ix3 (0 : Fin 1) p j) = (V m c main_arg1 : S8x2048x2048.Idx → EReal) (ix3 b r j) := by
  obtain ⟨-, -, ⟨a0, a1, a2⟩, -⟩ := idx_facts t
  unfold iblk
  rw [View.read_apply]
  show V m c main_arg1 _ = V m c main_arg1 _
  refine congrArg _ ?_
  funext a
  apply Fin.ext
  match a with
  | ⟨0, _⟩ => show win0_2.index t (0 : Fin 3) * 1 + 1 * 0 = b.val; omega
  | ⟨1, _⟩ => show win0_2.index t (1 : Fin 3) * 512 + 1 * p.val = r.val; omega
  | ⟨2, _⟩ => show win0_2.index t (2 : Fin 3) * 2048 + 1 * j.val = j.val; omega

/-- The query projection's block is the whole matrix. -/
theorem qw_at (c : Dev nD) (t : Fin cfg0.N) (d : Fin 5) (h : Fin 32) :
    (iblk m c 3 t : Vec Ideal S5x32 .f32) (ix2 d h) = (V m c main_arg2 : S5x32.Idx → EReal) (ix2 d h) := by
  obtain ⟨-, -, -, ⟨a0, a1⟩, -⟩ := idx_facts t
  unfold iblk
  rw [View.read_apply]
  show V m c main_arg2 _ = V m c main_arg2 _
  refine congrArg _ ?_
  funext a
  apply Fin.ext
  match a with
  | ⟨0, _⟩ => show win0_3.index t (0 : Fin 2) * 5 + 1 * d.val = d.val; omega
  | ⟨1, _⟩ => show win0_3.index t (1 : Fin 2) * 32 + 1 * h.val = h.val; omega

/-- The key projection's block is the whole matrix. -/
theorem kw_at (c : Dev nD) (t : Fin cfg0.N) (d : Fin 5) (h : Fin 32) :
    (iblk m c 4 t : Vec Ideal S5x32 .f32) (ix2 d h) = (V m c main_arg3 : S5x32.Idx → EReal) (ix2 d h) := by
  obtain ⟨-, -, -, -, ⟨a0, a1⟩, -⟩ := idx_facts t
  unfold iblk
  rw [View.read_apply]
  show V m c main_arg3 _ = V m c main_arg3 _
  refine congrArg _ ?_
  funext a
  apply Fin.ext
  match a with
  | ⟨0, _⟩ => show win0_4.index t (0 : Fin 2) * 5 + 1 * d.val = d.val; omega
  | ⟨1, _⟩ => show win0_4.index t (1 : Fin 2) * 32 + 1 * h.val = h.val; omega

/-- The output tile's (p, j) sits at (b, r, j) of the result array, b = t/4 and r = 512·(t%4) + p. -/
theorem out_emb (t : Fin cfg0.N) (b : Fin 8) (hb : b.val = t.val / 4) (p : Fin 512) (r : Fin 2048)
    (hr : r.val = 512 * (t.val % 4) + p.val) (j : Fin 2048) :
    ((cfg0.win 5).blk t).view.emb (ix3 (0 : Fin 1) p j : S1x512x2048.Idx) = (ix3 b r j : S8x2048x2048.Idx) := by
  obtain ⟨-, -, -, -, -, ⟨a0, a1, a2⟩⟩ := idx_facts t
  funext a
  apply Fin.ext
  match a with
  | ⟨0, _⟩ => show win0_5.index t (0 : Fin 3) * 1 + 1 * 0 = b.val; omega
  | ⟨1, _⟩ => show win0_5.index t (1 : Fin 3) * 512 + 1 * p.val = r.val; omega
  | ⟨2, _⟩ => show win0_5.index t (2 : Fin 3) * 2048 + 1 * j.val = j.val; omega

/-! ## What a point writes back -/

section
variable (hpay : ∀ (v0 : Vec Ideal S1x2048x5 .f32) (v2 : Vec Ideal S1x512x5 .f32) (v4 v6 : Vec Ideal S5x32 .f32)
    (v11 : Vec Ideal S1x512x2048 .f32) (p : Fin 512) (j : Fin 2048),
    k0_pay1 (F := Ideal) v0 v2 v4 v6 v11 (ValueIdx.ix3 (0 : Fin 1) p j) = Cert.Spec.outB v0 v2 v4 v6 v11 p j)
include hpay

/-- The tile point t computes, at a tile index, is G of the argument arrays at the index's place in the array. -/
theorem tile_eq (c : Dev nD) (t : Fin cfg0.N) (y : S1x512x2048.Idx) :
    k0_pay1 (F := Ideal) (iblk m c 0 t) (iblk m c 1 t) (iblk m c 4 t) (iblk m c 3 t) (iblk m c 2 t) y
      = Cert.Spec.G (V m c main_arg0) (V m c main_arg1) (V m c main_arg2) (V m c main_arg3) (((cfg0.win 5).blk t).view.emb y) := by
  obtain ⟨z, p, j, rfl⟩ : ∃ (z : Fin 1) (p : Fin 512) (j : Fin 2048), y = ix3 z p j := ⟨y 0, y 1, y 2, eq_ix3 y⟩
  obtain rfl : z = 0 := Subsingleton.elim _ _
  have ht : t.val < 32 := lt_of_lt_of_eq t.isLt N_0
  have hbn : t.val / 4 < 8 := by omega
  have hrow : ∀ p : Fin 512, 512 * (t.val % 4) + p.val < 2048 := fun p => by have := p.isLt; omega
  refine (hpay _ _ _ _ _ p j).trans ?_
  rw [out_emb t ⟨t.val / 4, hbn⟩ rfl p ⟨512 * (t.val % 4) + p.val, hrow p⟩ rfl j]
  exact outB_eq_G _ _ _ _ _ _ _ _ _ ⟨t.val / 4, hbn⟩ (fun p => ⟨512 * (t.val % 4) + p.val, hrow p⟩)
    (fun j d => slab_at m c t _ rfl j d) (fun p d => qtile_at m c t _ rfl p _ rfl d)
    (fun d h => kw_at m c t d h) (fun d h => qw_at m c t d h) (fun p j => adj_at m c t _ rfl p _ rfl j) p j

/-- What point t writes back is block t of G of the argument arrays. -/
theorem flushed_eq (c : Dev nD) (t : Fin cfg0.N) :
    (dats (F := Ideal) m 0 c).flushed 5 t = ((cfg0.win 5).blk t).view.read (Elt Ideal)
      (Cert.Spec.G (V m c main_arg0) (V m c main_arg1) (V m c main_arg2) (V m c main_arg3)) := by
  show (cfg0.win 5).cut (grid0.coords t) ((dats m 0 c).after 5 t) = _
  rw [after_5]
  unfold outTile
  rw [View.canon_unit_zero zero3]
  simp only [View.ld_unit_zero (S := S1x2048x5) zero3, View.ld_unit_zero (S := S1x512x5) zero3,
    View.ld_unit_zero (S := S1x512x2048) zero3, View.ld_unit_zero (S := S5x32) zero2]
  funext y
  exact tile_eq m hpay c t y

end

/-! ## The tiles cover the array -/

/-- An index of the result array is in point t's tile iff each coordinate is in the tile's range on its axis. -/
theorem mem_blk (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v0).slice (win0_5.rect t)).set ↔ _
  rw [View.set_slice_whole, Rect.mem_set_unit]
  exact Iff.rfl

/-- Index (b, r, j) is in the tile of point 4·b + r/512. -/
theorem cover (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  have hN : 4 * (i 0).val + (i 1).val / 512 < cfg0.N := by rw [show cfg0.N = 32 from N_0]; omega
  refine ⟨⟨4 * (i 0).val + (i 1).val / 512, hN⟩, flush0_5 _, ?_⟩
  rw [mem_blk]
  obtain ⟨-, -, -, -, -, ⟨a0, a1, a2⟩⟩ := idx_facts ⟨4 * (i 0).val + (i 1).val / 512, hN⟩
  have e0 : (4 * (i 0).val + (i 1).val / 512) / 4 = (i 0).val := by omega
  have e1 : (4 * (i 0).val + (i 1).val / 512) % 4 = (i 1).val / 512 := by omega
  intro a
  match a with
  | ⟨0, _⟩ =>
    show win0_5.index _ (0 : Fin 3) * 1 ≤ (i 0).val ∧ (i 0).val < win0_5.index _ (0 : Fin 3) * 1 + 1
    rw [a0]; show (4 * (i 0).val + (i 1).val / 512) / 4 * 1 ≤ (i 0).val ∧ (i 0).val < (4 * (i 0).val + (i 1).val / 512) / 4 * 1 + 1
    omega
  | ⟨1, _⟩ =>
    show win0_5.index _ (1 : Fin 3) * 512 ≤ (i 1).val ∧ (i 1).val < win0_5.index _ (1 : Fin 3) * 512 + 512
    rw [a1]; show (4 * (i 0).val + (i 1).val / 512) % 4 * 512 ≤ (i 1).val ∧ (i 1).val < (4 * (i 0).val + (i 1).val / 512) % 4 * 512 + 512
    omega
  | ⟨2, _⟩ =>
    show win0_5.index _ (2 : Fin 3) * 2048 ≤ (i 2).val ∧ (i 2).val < win0_5.index _ (2 : Fin 3) * 2048 + 2048
    rw [a2]; omega

/-! ## The array after the run -/

/-- The result array ends holding G of the four argument arrays as the region finds them. -/
theorem final_out (hpay : ∀ (v0 : Vec Ideal S1x2048x5 .f32) (v2 : Vec Ideal S1x512x5 .f32) (v4 v6 : Vec Ideal S5x32 .f32)
      (v11 : Vec Ideal S1x512x2048 .f32) (p : Fin 512) (j : Fin 2048),
      k0_pay1 (F := Ideal) v0 v2 v4 v6 v11 (ValueIdx.ix3 (0 : Fin 1) p j) = Cert.Spec.outB v0 v2 v4 v6 v11 p j)
    (c : Dev nD) :
    (dats (F := Ideal) m 0 c).arrAt 5 cfg0.N
      = Cert.Spec.G (V m c main_arg0) (V m c main_arg1) (V m c main_arg2) (V m c main_arg3) :=
  (dats (F := Ideal) m 0 c).arrAt_eq_of_cover 5
    (Cert.Spec.G (V m c main_arg0) (V m c main_arg1) (V m c main_arg2) (V m c main_arg3))
    (fun t _ => flushed_eq m hpay c t) cover

end Cert.KernelValue

end
-- ==== Proof.lean ====
/-
  Squared-score attention masked by adjacency weights and normalised by rows: the kernel against its reference.

  Both programs compute, for batch b, query row n and key row j,
    out(b,n,j) = att(b,n,j) / (Σ_j' att(b,n,j') + ε),   att(b,n,j) = (Σ_h q(b,n,h)·k(b,j,h))² · g(b,n,j),
    q = s·Qw,  k = s·Kw,
  on the extended reals (Proof/Spec.lean's `G`). The reference does so with three contractions, a row sum and a
  quotient over whole arrays. The kernel does so tile by tile: grid point (b, i) reads all of batch b's rows as keys,
  rows 512·i … 512·i + 511 as queries, and writes the 512 × 2048 tile (b, i) of the result; the 32 tiles are disjoint
  and fill the result. Every sum is a finite sum in a commutative monoid and the two programs nest them the same way,
  so the two results agree at every extended-real input: the precondition is not used.

  The three frames: the reference is a straight line of host operations; the kernel (read at words, and read at
  extended reals) is one pipelined region whose body loads five buffers whole and stores one, run here through the
  pipeline's launch rule for windows that share an array (the feature array is read through two windows, each
  holding half of its share). The idealization rewrote nothing, so there is nothing to preserve.
-/
import proofs.«148850_j47725676593806_1_alg».proof.Defs
import proofs.«148850_j47725676593806_1_alg».proof.Proof.Gen.Kernel
import proofs.«148850_j47725676593806_1_alg».proof.Proof.Gen.KernelIdeal
import proofs.«148850_j47725676593806_1_alg».proof.Proof.Gen.ReferenceIdeal
import proofs.«148850_j47725676593806_1_alg».proof.Proof.Gen.Pre_finite_inputs
import proofs.«148850_j47725676593806_1_alg».proof.Proof.Gen.ReferenceIdeal.Run
import proofs.«148850_j47725676593806_1_alg».proof.Proof.Gen.ReferenceIdeal.Read
import proofs.«148850_j47725676593806_1_alg».proof.Proof.K.Run
import proofs.«148850_j47725676593806_1_alg».proof.Proof.KI.Run
import proofs.«148850_j47725676593806_1_alg».proof.Proof.Spec
import proofs.«148850_j47725676593806_1_alg».proof.Proof.RefIsSpec
import proofs.«148850_j47725676593806_1_alg».proof.Proof.PayloadAt
import proofs.«148850_j47725676593806_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ => Cert.Kernel.Hand.frame m ρ

/-- So does the kernel read at extended reals. -/
theorem frame_ki : Cert.frame_KernelIdeal := fun m ρ _ => Cert.KernelIdeal.Hand.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `G` of the arguments: the
    kernel's 32 tiles are the tiles of `G`, and the reference's last stage is `G` index by index. -/
theorem algebraic : Cert.algebraic_KernelIdeal_ReferenceIdeal := by
  intro m ρ m' ρ' _ hagree
  refine ⟨fun c => Cert.Spec.G (Cert.KernelIdeal.Hand.V m c Cert.KernelIdeal.main_arg0) (Cert.KernelIdeal.Hand.V m c Cert.KernelIdeal.main_arg1)
      (Cert.KernelIdeal.Hand.V m c Cert.KernelIdeal.main_arg2) (Cert.KernelIdeal.Hand.V m c Cert.KernelIdeal.main_arg3), ?_, ?_⟩
  · exact (θ_run Cert.KernelIdeal.defs _ _).mono
      (fun _ h c => ⟨(h c).1.trans (Cert.KernelValue.final_out m (fun v0 v2 v4 v6 v11 p j => Cert.PayloadAt.pay_at v0 v2 v4 v6 v11 p j) c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, Cert.RefIsSpec.ref_is_G,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
